-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x20x512 : Shape := ⟨3, ![10000, 20, 512]⟩
abbrev S10000x20x1 : Shape := ⟨3, ![10000, 20, 1]⟩
abbrev S512x512 : Shape := ⟨2, ![512, 512]⟩
abbrev S9 : Shape := ⟨1, ![9]⟩
abbrev S512x64 : Shape := ⟨2, ![512, 64]⟩
abbrev S64x1 : Shape := ⟨2, ![64, 1]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x20x512 : S_.BroadcastsInDim S10000x20x512 (![] : Fin 0 → Fin S10000x20x512.rank)
  reducesTo_S10000x20x512_S_d0_1_2 : S10000x20x512.ReducesTo [0, 1, 2] S_
  bcast_S_S10000x20x1 : S_.BroadcastsInDim S10000x20x1 (![] : Fin 0 → Fin S10000x20x1.rank)
  reducesTo_S10000x20x1_S_d0_1_2 : S10000x20x1.ReducesTo [0, 1, 2] S_
  bcast_S_S512x512 : S_.BroadcastsInDim S512x512 (![] : Fin 0 → Fin S512x512.rank)
  reducesTo_S512x512_S_d0_1 : S512x512.ReducesTo [0, 1] S_
  bcast_S_S9 : S_.BroadcastsInDim S9 (![] : Fin 0 → Fin S9.rank)
  reducesTo_S9_S_d0 : S9.ReducesTo [0] S_
  bcast_S_S512x64 : S_.BroadcastsInDim S512x64 (![] : Fin 0 → Fin S512x64.rank)
  reducesTo_S512x64_S_d0_1 : S512x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg8 : FVec F S512x64 .f32) (main_arg9 : FVec F S64x1 .f32) (main_v33 : IVec S_ 1) : IVec S_ 1 :=
  let main_v34 : FVec F S512x64 .f32 := Host.absf main_arg8
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  main_v43

def fn_part1 {F : FTy → Type} [FloatOps F] (main_arg5 : FVec F S512x512 .f32) (main_arg6 : FVec F S9 .f32) (main_arg7 : FVec F S512x64 .f32) (main_arg8 : FVec F S512x64 .f32) (main_arg9 : FVec F S64x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S9 .f32 := Host.absf main_arg6
  let main_cst_8 : FVec F S_ .f32 := constant S_ .f32 0x7F800000#32
  let main_v25 : FVec F S9 .f32 := broadcastInDim S9 ![] bcast_S_S9 main_cst_8
  let main_v26 : IVec S9 1 := cmpf .olt main_v24 main_v25
  let main_c_9 : IVec S_ 1 := constantI S_ 1 1#1
  let main_v27 : IVec S_ 1 := (fun x v => Host.reduce IntOp.andi x v reducesTo_S9_S_d0 h_S_) main_v26 main_c_9
  let main_v28 : IVec S_ 1 := andi main_v23 main_v27
  let main_v29 : FVec F S512x64 .f32 := Host.absf main_arg7
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg8 main_arg9 main_v33

def fn {F : FTy → Type} [FloatOps F] (main_arg0 : FVec F S10000x512 .f32) (main_arg1 : FVec F S10000x20x512 .f32) (main_arg2 : FVec F S10000x20x1 .f32) (main_arg3 : IVec S10000x20x1 32) (main_arg4 : FVec F S512x512 .f32) (main_arg5 : FVec F S512x512 .f32) (main_arg6 : FVec F S9 .f32) (main_arg7 : FVec F S512x64 .f32) (main_arg8 : FVec F S512x64 .f32) (main_arg9 : FVec F S64x1 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x20x512 .f32 := Host.absf main_arg1
  let main_cst_0 : FVec F S_ .f32 := constant S_ .f32 0x7F800000#32
  let main_v5 : FVec F S10000x20x512 .f32 := broadcastInDim S10000x20x512 ![] bcast_S_S10000x20x512 main_cst_0
  let main_v6 : IVec S10000x20x512 1 := cmpf .olt main_v4 main_v5
  let main_c_1 : IVec S_ 1 := constantI S_ 1 1#1
  let main_v7 : IVec S_ 1 := (fun x v => Host.reduce IntOp.andi x v reducesTo_S10000x20x512_S_d0_1_2 h_S_) main_v6 main_c_1
  let main_v8 : IVec S_ 1 := andi main_v3 main_v7
  let main_v9 : FVec F S10000x20x1 .f32 := Host.absf main_arg2
  let main_cst_2 : FVec F S_ .f32 := constant S_ .f32 0x7F800000#32
  let main_v10 : FVec F S10000x20x1 .f32 := broadcastInDim S10000x20x1 ![] bcast_S_S10000x20x1 main_cst_2
  let main_v11 : IVec S10000x20x1 1 := cmpf .olt main_v9 main_v10
  let main_c_3 : IVec S_ 1 := constantI S_ 1 1#1
  let main_v12 : IVec S_ 1 := (fun x v => Host.reduce IntOp.andi x v reducesTo_S10000x20x1_S_d0_1_2 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S10000x512 : Shape := ⟨2, ![10000, 512]⟩
abbrev S10000x20x512 : Shape := ⟨3, ![10000, 20, 512]⟩
abbrev S10000x20x1 : Shape := ⟨3, ![10000, 20, 1]⟩
abbrev S512x512 : Shape := ⟨2, ![512, 512]⟩
abbrev S9 : Shape := ⟨1, ![9]⟩
abbrev S512x64 : Shape := ⟨2, ![512, 64]⟩
abbrev S64x1 : Shape := ⟨2, ![64, 1]⟩
abbrev S10000x20 : Shape := ⟨2, ![10000, 20]⟩
abbrev S_ : Shape := ⟨0, ![]⟩
abbrev S10000x1 : Shape := ⟨2, ![10000, 1]⟩
abbrev S10000x1x1 : Shape := ⟨3, ![10000, 1, 1]⟩
abbrev S200x512 : Shape := ⟨2, ![200, 512]⟩
abbrev S200x20x512 : Shape := ⟨3, ![200, 20, 512]⟩
abbrev S200x20x1 : Shape := ⟨3, ![200, 20, 1]⟩
abbrev S200x64 : Shape := ⟨2, ![200, 64]⟩
abbrev S200x1 : Shape := ⟨2, ![200, 1]⟩

abbrev nBuf : Space → Nat
  | .hbm => 29
  | .vmem => 13
  | .smem => 0
  | _ => 0

abbrev bufTy : (tb : Table) → Fin (tcTables nBuf tb) → BufTy
  | .hbm, ⟨0, _⟩ => ⟨S10000x512, .f32⟩
  | .hbm, ⟨1, _⟩ => ⟨S10000x20x512, .f32⟩
  | .hbm, ⟨2, _⟩ => ⟨S10000x20x1, .f32⟩
  | .hbm, ⟨3, _⟩ => ⟨S10000x20x1, .i32⟩
  | .hbm, ⟨4, _⟩ => ⟨S512x512, .f32⟩
  | .hbm, ⟨5, _⟩ => ⟨S512x512, .f32⟩
  | .hbm, ⟨6, _⟩ => ⟨S9, .f32⟩
  | .hbm, ⟨7, _⟩ => ⟨S512x64, .f32⟩
  | .hbm, ⟨8, _⟩ => ⟨S512x64, .f32⟩
  | .hbm, ⟨9, _⟩ => ⟨S64x1, .f32⟩
  | .hbm, ⟨10, _⟩ => ⟨S10000x20, .i32⟩
  | .hbm, ⟨11, _⟩ => ⟨S_, .i32⟩
  | .hbm, ⟨12, _⟩ => ⟨S10000x20, .i32⟩
  | .hbm, ⟨13, _⟩ => ⟨S10000x20, .i1⟩
  | .hbm, ⟨14, _⟩ => ⟨S_, .i32⟩
  | .hbm, ⟨15, _⟩ => ⟨S10000x20, .i32⟩
  | .hbm, ⟨16, _⟩ => ⟨S10000x20, .i32⟩
  | .hbm, ⟨17, _⟩ => ⟨S10000x20, .i32⟩
  | .hbm, ⟨18, _⟩ => ⟨S10000x20x1, .i32⟩
  | .hbm, ⟨19, _⟩ => ⟨S10000x20, .f32⟩
  | .hbm, ⟨20, _⟩ => ⟨S10000x20x1, .f32⟩
  | .hbm, ⟨21, _⟩ => ⟨S10000x20x1, .f32⟩
  | .hbm, ⟨22, _⟩ => ⟨S_, .f32⟩
  | .hbm, ⟨23, _⟩ => ⟨S10000x1, .f32⟩
  | .hbm, ⟨24, _⟩ => ⟨S10000x1x1, .f32⟩
  | .hbm, ⟨25, _⟩ => ⟨S10000x20x1, .f32⟩
  | .hbm, ⟨26, _⟩ => ⟨S10000x20x1, .f32⟩
  | .hbm, ⟨27, _⟩ => ⟨S10000x20x1, .f32⟩
  | .hbm, ⟨28, _⟩ => ⟨S10000x512, .f32⟩
  | .local _ .vmem, ⟨0, _⟩ => ⟨S200x512, .f32⟩
  | .local _ .vmem, ⟨1, _⟩ => ⟨S200x512, .f32⟩
  | .local _ .vmem, ⟨2, _⟩ => ⟨S200x20x512, .f32⟩
  | .local _ .vmem, ⟨3, _⟩ => ⟨S200x20x512, .f32⟩
  | .local _ .vmem, ⟨4, _⟩ => ⟨S200x20x1, .f32⟩
  | .local _ .vmem, ⟨5, _⟩ => ⟨S200x20x1, .f32⟩
  | .local _ .vmem, ⟨6, _⟩ => ⟨S512x512, .f32⟩
  | .local _ .vmem, ⟨7, _⟩ => ⟨S512x512, .f32⟩
  | .local _ .vmem, ⟨8, _⟩ => ⟨S512x64, .f32⟩
  | .local _ .vmem, ⟨9, _⟩ => ⟨S512x64, .f32⟩
  | .local _ .vmem, ⟨10, _⟩ => ⟨S64x1, .f32⟩
  | .local _ .vmem, ⟨11, _⟩ => ⟨S200x512, .f32⟩
  | .local _ .vmem, ⟨12, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x20x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x20x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S200x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S10000x20x1_S10000x20 : S10000x20x1.ShapeCasts S10000x20
  bcast_S_S10000x20 : S_.BroadcastsInDim S10000x20 (![] : Fin 0 → Fin S10000x20.rank)
  bcast_S10000x20_S10000x20x1_0_1 : S10000x20.BroadcastsInDim S10000x20x1 (![0, 1] : Fin 2 → Fin S10000x20x1.rank)
  reducesTo_S10000x20x1_S10000x1_d1 : S10000x20x1.ReducesTo [1] S10000x1
  h_S_ : 0 < S_.numel
  bcast_S10000x1_S10000x1x1_0_2 : S10000x1.BroadcastsInDim S10000x1x1 (![0, 2] : Fin 2 → Fin S10000x1x1.rank)
  bcast_S10000x1x1_S10000x20x1_0_1_2 : S10000x1x1.BroadcastsInDim S10000x20x1 (![0, 1, 2] : Fin 3 → Fin S10000x20x1.rank)
  inb_S200x20x512_S200x20x512_0_0_0 : ∀ a, (![0, 0, 0] : Fin 3 → Nat) a + S200x20x512.size a ≤ S200x20x512.size a
  h_S200x20x512 : 0 < S200x20x512.numel
  inb_S200x20x1_S200x20x1_0_0_0 : ∀ a, (![0, 0, 0] : Fin 3 → Nat) a + S200x20x1.size a ≤ S200x20x1.size a
  h_S200x20x1 : 0 < S200x20x1.numel
  shapeCasts_S200x20x1_S200x20x1 : S200x20x1.ShapeCasts S200x20x1
  broadcasts_S200x20x1_S200x20x512 : S200x20x1.Broadcasts S200x20x512
  reduces_S200x20x512_S200x512 : S200x20x512.Reduces [1] S200x512
  inb_S200x512_S200x512_0_0 : ∀ a, (![0, 0] : Fin 2 → Nat) a + S200x512.size a ≤ S200x512.size a
  h_S200x512 : 0 < S200x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x64_S512x64_0_0 : ∀ a, (![0, 0] : Fin 2 → Nat) a + S512x64.size a ≤ S512x64.size a
  h_S512x64 : 0 < S512x64.numel
  inb_S64x1_S64x1_0_0 : ∀ a, (![0, 0] : Fin 2 → Nat) a + S64x1.size a ≤ S64x1.size a
  h_S64x1 : 0 < S64x1.numel
  broadcasts_S200x1_S200x512 : S200x1.Broadcasts S200x512
  gather_S9_S10000x20x1_S10000x20_n_0_n_n_0_2_1_wf : GatherDims.WF S9 S10000x20x1 S10000x20 [] [0] [] [0] [] 2 ![1]
  dot_S200x512_S512x512_S200x512_1_0_0_1_n_n_wf : DotDims.WF S200x512 S512x512 S200x512 [1] [0] [0] [1] [] []
  dot_S200x512_S512x64_S200x64_1_0_0_1_n_n_wf : DotDims.WF S200x512 S512x64 S200x64 [1] [0] [0] [1] [] []
  dot_S200x64_S64x1_S200x1_1_0_0_1_n_n_wf : DotDims.WF S200x64 S64x1 S200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x512.size a ≤ S10000x512.size a
  hwx0_0 : ∀ i : grid0.Coords, EltTy.bits .f32 = 32 ∨ (Rect.block (s := S10000x512) S200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x20x512.size a ≤ S10000x20x512.size a
  hwx0_1 : ∀ i : grid0.Coords, EltTy.bits .f32 = 32 ∨ (Rect.block (s := S10000x20x512) S200x20x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x20x1.size a ≤ S10000x20x1.size a
  hwx0_2 : ∀ i : grid0.Coords, EltTy.bits .f32 = 32 ∨ (Rect.block (s := S10000x20x1) S200x20x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S512x64.size a
  hwx0_5 : ∀ i : grid0.Coords, EltTy.bits .f32 = 32 ∨ (Rect.block (s := S512x64) S512x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S512x64.size a
  hwx0_6 : ∀ i : grid0.Coords, EltTy.bits .f32 = 32 ∨ (Rect.block (s := S512x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x512.size a ≤ S10000x512.size a
  hwx0_8 : ∀ i : grid0.Coords, EltTy.bits .f32 = 32 ∨ (Rect.block (s := S10000x512) S200x512.size (cc0_transform_8 i) (hinb0_8 i)).WholeWords (EltTy.packing .f32)

variable [Facts₀]

def gather_S9_S10000x20x1_S10000x20_n_0_n_n_0_2_1 : GatherDims S9 S10000x20x1 S10000x20 where
  offsetDims := []
  collapsedSliceDims := [0]
  operandBatchingDims := []
  startIndicesBatchingDims := []
  startIndexMap := [0]
  indexVectorDim := 2
  sliceSizes := ![1]
  wf := gather_S9_S10000x20x1_S10000x20_n_0_n_n_0_2_1_wf
def dot_S200x512_S512x512_S200x512_1_0_0_1_n_n : DotDims S200x512 S512x512 S200x512 where
  lhsContracting := [1]
  rhsContracting := [0]
  lhsNonContracting := [0]
  rhsNonContracting := [1]
  lhsBatch := []
  rhsBatch := []
  wf := dot_S200x512_S512x512_S200x512_1_0_0_1_n_n_wf
def dot_S200x512_S512x64_S200x64_1_0_0_1_n_n : DotDims S200x512 S512x64 S200x64 where
  lhsContracting := [1]
  rhsContracting := [0]
  lhsNonContracting := [0]
  rhsNonContracting := [1]
  lhsBatch := []
  rhsBatch := []
  wf := dot_S200x512_S512x64_S200x64_1_0_0_1_n_n_wf
def dot_S200x64_S64x1_S200x1_1_0_0_1_n_n : DotDims S200x64 S64x1 S200x1 where
  lhsContracting := [1]
  rhsContracting := [0]
  lhsNonContracting := [0]
  rhsNonContracting := [1]
  lhsBatch := []
  rhsBatch := []
  wf := dot_S200x64_S64x1_S200x1_1_0_0_1_n_n_wf

abbrev win0_0 : Pipeline.Window sig grid0 :=
  Pipeline.Window.ofSpec (Memref.whole main_arg0) S200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x20x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S200x20x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S512x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S200x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S10000x512 : Shape := ⟨2, ![10000, 512]⟩
abbrev S10000x20x512 : Shape := ⟨3, ![10000, 20, 512]⟩
abbrev S10000x20x1 : Shape := ⟨3, ![10000, 20, 1]⟩
abbrev S512x512 : Shape := ⟨2, ![512, 512]⟩
abbrev S9 : Shape := ⟨1, ![9]⟩
abbrev S512x64 : Shape := ⟨2, ![512, 64]⟩
abbrev S64x1 : Shape := ⟨2, ![64, 1]⟩
abbrev S10000x20 : Shape := ⟨2, ![10000, 20]⟩
abbrev S_ : Shape := ⟨0, ![]⟩
abbrev S10000x1 : Shape := ⟨2, ![10000, 1]⟩
abbrev S10000x1x1 : Shape := ⟨3, ![10000, 1, 1]⟩
abbrev S10000x64 : Shape := ⟨2, ![10000, 64]⟩

abbrev nBuf : Space → Nat
  | .hbm => 56
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x20x512, .f32⟩
  | .hbm, ⟨2, _⟩ => ⟨S10000x20x1, .f32⟩
  | .hbm, ⟨3, _⟩ => ⟨S10000x20x1, .i32⟩
  | .hbm, ⟨4, _⟩ => ⟨S512x512, .f32⟩
  | .hbm, ⟨5, _⟩ => ⟨S512x512, .f32⟩
  | .hbm, ⟨6, _⟩ => ⟨S9, .f32⟩
  | .hbm, ⟨7, _⟩ => ⟨S512x64, .f32⟩
  | .hbm, ⟨8, _⟩ => ⟨S512x64, .f32⟩
  | .hbm, ⟨9, _⟩ => ⟨S64x1, .f32⟩
  | .hbm, ⟨10, _⟩ => ⟨S10000x20x512, .f32⟩
  | .hbm, ⟨11, _⟩ => ⟨S10000x20x512, .f32⟩
  | .hbm, ⟨12, _⟩ => ⟨S10000x20, .i32⟩
  | .hbm, ⟨13, _⟩ => ⟨S_, .i32⟩
  | .hbm, ⟨14, _⟩ => ⟨S10000x20, .i32⟩
  | .hbm, ⟨15, _⟩ => ⟨S10000x20, .i1⟩
  | .hbm, ⟨16, _⟩ => ⟨S_, .i32⟩
  | .hbm, ⟨17, _⟩ => ⟨S10000x20, .i32⟩
  | .hbm, ⟨18, _⟩ => ⟨S10000x20, .i32⟩
  | .hbm, ⟨19, _⟩ => ⟨S10000x20, .i32⟩
  | .hbm, ⟨20, _⟩ => ⟨S10000x20x1, .i32⟩
  | .hbm, ⟨21, _⟩ => ⟨S10000x20, .f32⟩
  | .hbm, ⟨22, _⟩ => ⟨S10000x20x1, .f32⟩
  | .hbm, ⟨23, _⟩ => ⟨S10000x20x1, .f32⟩
  | .hbm, ⟨24, _⟩ => ⟨S_, .f32⟩
  | .hbm, ⟨25, _⟩ => ⟨S10000x1, .f32⟩
  | .hbm, ⟨26, _⟩ => ⟨S10000x1x1, .f32⟩
  | .hbm, ⟨27, _⟩ => ⟨S10000x20x1, .f32⟩
  | .hbm, ⟨28, _⟩ => ⟨S10000x20x1, .f32⟩
  | .hbm, ⟨29, _⟩ => ⟨S10000x20x512, .f32⟩
  | .hbm, ⟨30, _⟩ => ⟨S10000x20x512, .f32⟩
  | .hbm, ⟨31, _⟩ => ⟨S_, .f32⟩
  | .hbm, ⟨32, _⟩ => ⟨S10000x512, .f32⟩
  | .hbm, ⟨33, _⟩ => ⟨S10000x512, .f32⟩
  | .hbm, ⟨34, _⟩ => ⟨S10000x512, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x64, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x1, .f32⟩
  | .hbm, ⟨43, _⟩ => ⟨S10000x1, .f32⟩
  | .hbm, ⟨44, _⟩ => ⟨S10000x1, .f32⟩
  | .hbm, ⟨45, _⟩ => ⟨S10000x1, .f32⟩
  | .hbm, ⟨46, _⟩ => ⟨S10000x1, .f32⟩
  | .hbm, ⟨47, _⟩ => ⟨S10000x512, .f32⟩
  | .hbm, ⟨48, _⟩ => ⟨S10000x512, .f32⟩
  | .hbm, ⟨49, _⟩ => ⟨S10000x1, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S_, .f32⟩
  | .hbm, ⟨54, _⟩ => ⟨S10000x512, .f32⟩
  | .hbm, ⟨55, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S10000x20x1_S10000x20x512_0_1_2 : S10000x20x1.BroadcastsInDim S10000x20x512 (![0, 1, 2] : Fin 3 → Fin S10000x20x512.rank)
  shapeCasts_S10000x20x1_S10000x20 : S10000x20x1.ShapeCasts S10000x20
  bcast_S_S10000x20 : S_.BroadcastsInDim S10000x20 (![] : Fin 0 → Fin S10000x20.rank)
  bcast_S10000x20_S10000x20x1_0_1 : S10000x20.BroadcastsInDim S10000x20x1 (![0, 1] : Fin 2 → Fin S10000x20x1.rank)
  reducesTo_S10000x20x1_S10000x1_d1 : S10000x20x1.ReducesTo [1] S10000x1
  h_S_ : 0 < S_.numel
  bcast_S10000x1_S10000x1x1_0_2 : S10000x1.BroadcastsInDim S10000x1x1 (![0, 2] : Fin 2 → Fin S10000x1x1.rank)
  bcast_S10000x1x1_S10000x20x1_0_1_2 : S10000x1x1.BroadcastsInDim S10000x20x1 (![0, 1, 2] : Fin 3 → Fin S10000x20x1.rank)
  reducesTo_S10000x20x512_S10000x512_d1 : S10000x20x512.ReducesTo [1] S10000x512
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  gather_S9_S10000x20x1_S10000x20_n_0_n_n_0_2_1_wf : GatherDims.WF S9 S10000x20x1 S10000x20 [] [0] [] [0] [] 2 ![1]
  dot_S10000x512_S512x512_S10000x512_1_0_0_1_n_n_wf : DotDims.WF S10000x512 S512x512 S10000x512 [1] [0] [0] [1] [] []
  dot_S10000x512_S512x64_S10000x64_1_0_0_1_n_n_wf : DotDims.WF S10000x512 S512x64 S10000x64 [1] [0] [0] [1] [] []
  dot_S10000x64_S64x1_S10000x1_1_0_0_1_n_n_wf : DotDims.WF S10000x64 S64x1 S10000x1 [1] [0] [0] [1] [] []

variable [Facts₀]

def gather_S9_S10000x20x1_S10000x20_n_0_n_n_0_2_1 : GatherDims S9 S10000x20x1 S10000x20 where
  offsetDims := []
  collapsedSliceDims := [0]
  operandBatchingDims := []
  startIndicesBatchingDims := []
  startIndexMap := [0]
  indexVectorDim := 2
  sliceSizes := ![1]
  wf := gather_S9_S10000x20x1_S10000x20_n_0_n_n_0_2_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.RowSpec.lean ====
/-
  The layer's output, row by row, as a function on the extended reals.

  For one node: the neighbour rows are scaled by their edge weights and added up (`neighSum`); the node's own row and
  that sum are each multiplied into an output matrix and into an attention matrix (`proj`); the two attention rows —
  own + own and neighbour + own — are contracted with the vector `v` and put through `exp ∘ tanh` (`gate`); the
  output is the two products mixed in the proportion of the two gates, clipped below at zero (`rowOut`).
  `table` reads the row function off arrays with any number of rows, so that a block of rows and the whole array
  are instances of one definition.
-/
import Idealize.ShloMosaic.PureOps.Ideal
import Idealize.ShloMosaic.Lib.ValueIdx

noncomputable section

open scoped BigOperators

namespace Cert.NeighbourGate

open Idealize.ShloMosaic Idealize.ShloMosaic.ValueIdx

/-- The weighted sum of a node's twenty neighbour rows, one feature at a time. -/
def neighSum (nb : Fin 20 → Fin 512 → EReal) (w : Fin 20 → EReal) (d : Fin 512) : EReal :=
  ∑ s : Fin 20, nb s d * w s

/-- A row times a matrix. -/
def proj {K N : ℕ} (row : Fin K → EReal) (W : Fin K → Fin N → EReal) (j : Fin N) : EReal :=
  ∑ k : Fin K, row k * W k j

/-- An attention row contracted with `v`, then `exp ∘ tanh`. -/
def gate (imp : Fin 64 → EReal) (v : Fin 64 → EReal) : EReal :=
  Ideal.exp (Ideal.tanh (∑ a : Fin 64, imp a * v a))

/-- One node's output row: with `aS`, `aN` the gates of (own + own) and (neighbour + own),
    `max (aS / (aS + aN) · self·Ws + aN / (aS + aN) · neigh·Wn) 0`. -/
def rowOut (self : Fin 512 → EReal) (nb : Fin 20 → Fin 512 → EReal) (w : Fin 20 → EReal)
    (Wn Ws : Fin 512 → Fin 512 → EReal) (As An : Fin 512 → Fin 64 → EReal) (v : Fin 64 → EReal) (j : Fin 512) : EReal :=
  max (Ideal.div (gate (fun a => proj self As a + proj self As a) v)
          (gate (fun a => proj self As a + proj self As a) v + gate (fun a => proj (neighSum nb w) An a + proj self As a) v)
        * proj self Ws j
      + Ideal.div (gate (fun a => proj (neighSum nb w) An a + proj self As a) v)
          (gate (fun a => proj self As a + proj self As a) v + gate (fun a => proj (neighSum nb w) An a + proj self As a) v)
        * proj (neighSum nb w) Wn j) 0

/-- The row function read off arrays of `R` rows: entry `(n, j)` of the output. -/
def table {R : ℕ} (x0 : (⟨2, ![R, 512]⟩ : Shape).Idx → EReal) (x1 : (⟨3, ![R, 20, 512]⟩ : Shape).Idx → EReal)
    (cw : (⟨3, ![R, 20, 1]⟩ : Shape).Idx → EReal) (Wn Ws : (⟨2, ![512, 512]⟩ : Shape).Idx → EReal)
    (As An : (⟨2, ![512, 64]⟩ : Shape).Idx → EReal) (v : (⟨2, ![64, 1]⟩ : Shape).Idx → EReal)
    (n : Fin R) (j : Fin 512) : EReal :=
  rowOut (fun k => x0 (ix2 n k)) (fun s d => x1 (ix3 n s d)) (fun s => cw (ix3 n s (0 : Fin 1)))
    (fun k j => Wn (ix2 k j)) (fun k j => Ws (ix2 k j)) (fun k a => As (ix2 k a)) (fun k a => An (ix2 k a))
    (fun a => v (ix2 a (0 : Fin 1))) j

/-- The row function depends only on the row it reads and on the matrices' entries: arrays that agree there give the
    same entry, whatever their numbers of rows. -/
theorem table_congr {R R' : ℕ}
    {x0 : (⟨2, ![R, 512]⟩ : Shape).Idx → EReal} {x1 : (⟨3, ![R, 20, 512]⟩ : Shape).Idx → EReal} {cw : (⟨3, ![R, 20, 1]⟩ : Shape).Idx → EReal}
    {x0' : (⟨2, ![R', 512]⟩ : Shape).Idx → EReal} {x1' : (⟨3, ![R', 20, 512]⟩ : Shape).Idx → EReal} {cw' : (⟨3, ![R', 20, 1]⟩ : Shape).Idx → EReal}
    {Wn Ws Wn' Ws' : (⟨2, ![512, 512]⟩ : Shape).Idx → EReal} {As An As' An' : (⟨2, ![512, 64]⟩ : Shape).Idx → EReal}
    {v v' : (⟨2, ![64, 1]⟩ : Shape).Idx → EReal} {n : Fin R} {n' : Fin R'}
    (h0 : ∀ k : Fin 512, x0 (ix2 n k) = x0' (ix2 n' k))
    (h1 : ∀ (s : Fin 20) (d : Fin 512), x1 (ix3 n s d) = x1' (ix3 n' s d))
    (h2 : ∀ s : Fin 20, cw (ix3 n s (0 : Fin 1)) = cw' (ix3 n' s (0 : Fin 1)))
    (hWn : ∀ (k : Fin 512) (j : Fin 512), Wn (ix2 k j) = Wn' (ix2 k j))
    (hWs : ∀ (k : Fin 512) (j : Fin 512), Ws (ix2 k j) = Ws' (ix2 k j))
    (hAs : ∀ (k : Fin 512) (a : Fin 64), As (ix2 k a) = As' (ix2 k a))
    (hAn : ∀ (k : Fin 512) (a : Fin 64), An (ix2 k a) = An' (ix2 k a))
    (hv : ∀ a : Fin 64, v (ix2 a (0 : Fin 1)) = v' (ix2 a (0 : Fin 1))) (j : Fin 512) :
    table x0 x1 cw Wn Ws As An v n j = table x0' x1' cw' Wn' Ws' As' An' v' n' j := by
  simp only [table, h0, h1, h2, hWn, hWs, hAs, hAn, hv]

/-- The whole output array of the 10000 nodes. -/
def G (x0 : (⟨2, ![10000, 512]⟩ : Shape).Idx → EReal) (x1 : (⟨3, ![10000, 20, 512]⟩ : Shape).Idx → EReal)
    (cw : (⟨3, ![10000, 20, 1]⟩ : Shape).Idx → EReal) (Wn Ws : (⟨2, ![512, 512]⟩ : Shape).Idx → EReal)
    (As An : (⟨2, ![512, 64]⟩ : Shape).Idx → EReal) (v : (⟨2, ![64, 1]⟩ : Shape).Idx → EReal) :
    (⟨2, ![10000, 512]⟩ : Shape).Idx → EReal :=
  fun i => table x0 x1 cw Wn Ws As An v (i 0) (i 1)

theorem G_ix2 (x0 : (⟨2, ![10000, 512]⟩ : Shape).Idx → EReal) (x1 : (⟨3, ![10000, 20, 512]⟩ : Shape).Idx → EReal)
    (cw : (⟨3, ![10000, 20, 1]⟩ : Shape).Idx → EReal) (Wn Ws : (⟨2, ![512, 512]⟩ : Shape).Idx → EReal)
    (As An : (⟨2, ![512, 64]⟩ : Shape).Idx → EReal) (v : (⟨2, ![64, 1]⟩ : Shape).Idx → EReal) (n : Fin 10000) (j : Fin 512) :
    G x0 x1 cw Wn Ws As An v (ix2 n j) = table x0 x1 cw Wn Ws As An v n j := rfl

end Cert.NeighbourGate

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibTrailingUnit.lean ====
/-
  A trailing unit axis added to a matrix and then repeated, read at an index given by coordinates.

  A shape cast keeps the row-major position of every element, so an [a, b] matrix viewed as [a, b, 1] has at (i, j, 0)
  the matrix's entry (i, j); a broadcast reads the operand at the result's coordinates with coordinate 0 on the
  operand's unit axes, so that [a, b, 1] array spread to [a, b, k] has at (i, j, u) the entry at (i, j, 0).  Together:
  a matrix repeated k times along a new last axis (the first step of turning a matrix of bins into one-hot rows).
-/
import Idealize.ShloMosaic.Lib.Pipeline.Value
import Idealize.ShloMosaic.Lib.ValueIdx

namespace Idealize.ShloMosaic.TrailingUnit

open Idealize.ShloMosaic Idealize.ShloMosaic.ValueIdx

variable {α : Type}

/-- An `[a, b]` matrix cast to `[a, b, 1]` reads, at `(i, j, u)`, the operand at `(i, j)`: both indices have
    row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, k]` reads, at `(i, j, u)`, the operand at `(i, j, 0)`: every trailing
    coordinate sees the same entry. -/
theorem broadcastTo_ab1_abk_apply {a b k : ℕ} (x : (⟨3, ![a, b, 1]⟩ : Shape).Idx → α)
    (h : (⟨3, ![a, b, 1]⟩ : Shape).Broadcasts ⟨3, ![a, b, k]⟩) (i : Fin a) (j : Fin b) (u : Fin k) :
    broadcastTo ⟨3, ![a, b, k]⟩ x h (ix3 i j u) = x (ix3 i j (0 : Fin 1)) := by
  refine broadcastTo_apply x h (ix3 i j u) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix given a trailing unit axis and repeated `k` times along it: entry `(p, q, u)` is the matrix's entry `(p, q)`. -/
theorem depth_apply {a b k : ℕ} (d : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, k]⟩)
    (p : Fin a) (q : Fin b) (u : Fin k) :
    broadcastTo ⟨3, ![a, b, k]⟩ (shapeCast ⟨3, ![a, b, 1]⟩ d h1) h2 (ix3 p q u) = d (ix2 p q) := by
  rw [broadcastTo_ab1_abk_apply, shapeCast_ab_ab1_apply]

end Idealize.ShloMosaic.TrailingUnit
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.LibMiddleAxisSum.lean ====
/-
  A sum along the middle axis of a three-axis array, read at an index.

  At the ideal values a `vector.multi_reduction <add>` of an [a, b, c] array along axis 1 (from the neutral accumulator)
  has at (i, k) the sum over the b middle coordinates j of the entries (i, j, k): the indices that reduce to (i, k) are
  exactly (i, j, k), one for each j.
-/
import Idealize.ShloMosaic.Lib.ValueIdx
import Idealize.ShloMosaic.PureOps.Ideal.Laws

noncomputable section

open scoped BigOperators

namespace Idealize.ShloMosaic.MiddleAxisSum

open Idealize.ShloMosaic Idealize.ShloMosaic.ValueIdx

/-- Entry `(i, k)` of the sum of an `[a, b, c]` array along its middle axis: `∑ j, x (i, j, k)`. -/
theorem multiReduction_add_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => ?_
  exact congrArg src (funext fun d => Fin.ext (by
    match d with
    | ⟨0, _⟩ => rfl
    | ⟨1, _⟩ => rfl
    | ⟨2, _⟩ => rfl))

end Idealize.ShloMosaic.MiddleAxisSum

end
-- ==== Proof.KernelRow.lean ====
/-
  One row of the kernel's block.

  The kernel's body works on a block of 200 nodes. Read at row p of the block and column q, what it stores is the
  row function of the specification applied to row p of each loaded block: the lane sum over the twenty neighbours is
  the weighted neighbour sum, each matrix unit product into a zero accumulator is a row times a matrix (a change of
  float format being the identity on the extended reals), and the two columns of gates are spread along the row.
-/
import proofs.«164670_j73847667687537_1_alg».proof.Proof.ValueBlocks
import proofs.«164670_j73847667687537_1_alg».proof.Proof.RowSpec
import proofs.«164670_j73847667687537_1_alg».proof.Proof.LibPlainMatmul
import proofs.«164670_j73847667687537_1_alg».proof.Proof.LibTrailingUnit
import proofs.«164670_j73847667687537_1_alg».proof.Proof.LibKeptColumn
import proofs.«164670_j73847667687537_1_alg».proof.Proof.LibMiddleAxisSum
import Idealize.ShloMosaic.Lib.Pipeline.Value
import Idealize.ShloMosaic.Lib.ValueIdx
import Idealize.ShloMosaic.PureOps.Ideal.Laws

noncomputable section

open scoped BigOperators

namespace Cert.KernelIdeal.Row

open Cert.KernelIdeal Cert.KernelIdeal.Gen Cert.NeighbourGate
open Idealize.ShloMosaic Idealize.ShloMosaic.ValueIdx

variable (P0 : FVec Ideal S200x20x512 .f32) (P1 : FVec Ideal S200x20x1 .f32) (P2 : FVec Ideal S200x512 .f32)
  (P3 : FVec Ideal S512x512 .f32) (P4 P5 : FVec Ideal S512x64 .f32) (P6 : FVec Ideal S64x1 .f32)
  (P7 : FVec Ideal S512x512 .f32)

/-- The lane sum over the neighbours, at row `p` and feature `d`: the neighbour rows of `p` weighted and added. -/
theorem neighSum_at (p : Fin 200) (d : Fin 512) :
    k0_pay2 (F := Ideal) P0 P1 (ix2 p d)
      = neighSum (fun s d => P0 (ix3 p s d)) (fun s => P1 (ix3 p s (0 : Fin 1))) d := by
  show multiReduction .add [1] S200x512
      (mulf P0 (broadcastTo S200x20x512 (shapeCast S200x20x1 P1 shapeCasts_S200x20x1_S200x20x1) broadcasts_S200x20x1_S200x20x512))
      0x00000000#32 reduces_S200x20x512_S200x512 (.inl rfl) rfl (ix2 p d)
    = ∑ s : Fin 20, P0 (ix3 p s d) * P1 (ix3 p s (0 : Fin 1))
  refine (MiddleAxisSum.multiReduction_add_middle_apply _ _ _ _ _ p d).trans ?_
  refine Finset.sum_congr rfl fun s _ => ?_
  show P0 (ix3 p s d) * (broadcastTo S200x20x512 (shapeCast S200x20x1 P1 shapeCasts_S200x20x1_S200x20x1) broadcasts_S200x20x1_S200x20x512) (ix3 p s d) = _
  rw [TrailingUnit.broadcastTo_ab1_abk_apply, shapeCast_self]

/-- The node's own row into the own-attention matrix. -/
theorem selfAtt_at (p : Fin 200) (a : Fin 64) :
    k0_pay4 (F := Ideal) P2 P4 (ix2 p a) = proj (fun k => P2 (ix2 p k)) (fun k a => P4 (ix2 k a)) a :=
  PlainMatmul.matmul_zero_apply (φ₁ := .f32) (φ₂ := .f32) dot_S200x512_S512x64_S200x64_1_0_0_1_n_n rfl rfl rfl rfl rfl rfl none P2 P4 p a

/-- The neighbour sum into the neighbour output matrix. -/
theorem fromNeigh_at (p : Fin 200) (j : Fin 512) :
    k0_pay3 (F := Ideal) P0 P1 P7 (ix2 p j)
      = proj (neighSum (fun s d => P0 (ix3 p s d)) (fun s => P1 (ix3 p s (0 : Fin 1)))) (fun k j => P7 (ix2 k j)) j := by
  refine (PlainMatmul.matmul_zero_apply (φ₁ := .bf16) (φ₂ := .bf16) dot_S200x512_S512x512_S200x512_1_0_0_1_n_n rfl rfl rfl rfl rfl rfl none
    (truncf .bf16 (k0_pay2 (F := Ideal) P0 P1) bitsLt_bf16_f32) (truncf .bf16 P7 bitsLt_bf16_f32) p j).trans ?_
  refine Finset.sum_congr rfl fun k _ => ?_
  show k0_pay2 (F := Ideal) P0 P1 (ix2 p k) * P7 (ix2 k j) = _
  rw [neighSum_at]

/-- The gate of (own + own). -/
theorem gateSelf_at (p : Fin 200) :
    k0_pay5 (F := Ideal) P2 P4 P6 (ix2 p (0 : Fin 1))
      = gate (fun a => proj (fun k => P2 (ix2 p k)) (fun k a => P4 (ix2 k a)) a + proj (fun k => P2 (ix2 p k)) (fun k a => P4 (ix2 k a)) a)
          (fun a => P6 (ix2 a (0 : Fin 1))) := by
  show Ideal.exp (Ideal.tanh (matmul dot_S200x64_S64x1_S200x1_1_0_0_1_n_n none
      (addf (k0_pay4 (F := Ideal) P2 P4) (k0_pay4 (F := Ideal) P2 P4)) P6 (constant S200x1 .f32 0x00000000#32) (ix2 p (0 : Fin 1)))) = _
  refine congrArg (fun z => Ideal.exp (Ideal.tanh z)) ?_
  refine (PlainMatmul.matmul_zero_apply (φ₁ := .f32) (φ₂ := .f32) dot_S200x64_S64x1_S200x1_1_0_0_1_n_n rfl rfl rfl rfl rfl rfl none
    (addf (k0_pay4 (F := Ideal) P2 P4) (k0_pay4 (F := Ideal) P2 P4)) P6 p (0 : Fin 1)).trans ?_
  refine Finset.sum_congr rfl fun a _ => ?_
  show (k0_pay4 (F := Ideal) P2 P4 (ix2 p a) + k0_pay4 (F := Ideal) P2 P4 (ix2 p a)) * P6 (ix2 a (0 : Fin 1)) = _
  rw [selfAtt_at]

/-- The gate of (neighbour + own). -/
theorem gateNeigh_at (p : Fin 200) :
    k0_pay6 (F := Ideal) P0 P1 P2 P4 P5 P6 (ix2 p (0 : Fin 1))
      = gate (fun a => proj (neighSum (fun s d => P0 (ix3 p s d)) (fun s => P1 (ix3 p s (0 : Fin 1)))) (fun k a => P5 (ix2 k a)) a
                      + proj (fun k => P2 (ix2 p k)) (fun k a => P4 (ix2 k a)) a)
          (fun a => P6 (ix2 a (0 : Fin 1))) := by
  show Ideal.exp (Ideal.tanh (matmul dot_S200x64_S64x1_S200x1_1_0_0_1_n_n none
      (addf (matmul dot_S200x512_S512x64_S200x64_1_0_0_1_n_n none (k0_pay2 (F := Ideal) P0 P1) P5 (constant S200x64 .f32 0x00000000#32))
        (k0_pay4 (F := Ideal) P2 P4)) P6 (constant S200x1 .f32 0x00000000#32) (ix2 p (0 : Fin 1)))) = _
  refine congrArg (fun z => Ideal.exp (Ideal.tanh z)) ?_
  refine (PlainMatmul.matmul_zero_apply (φ₁ := .f32) (φ₂ := .f32) dot_S200x64_S64x1_S200x1_1_0_0_1_n_n rfl rfl rfl rfl rfl rfl none
    (addf (matmul dot_S200x512_S512x64_S200x64_1_0_0_1_n_n none (k0_pay2 (F := Ideal) P0 P1) P5 (constant S200x64 .f32 0x00000000#32))
      (k0_pay4 (F := Ideal) P2 P4)) P6 p (0 : Fin 1)).trans ?_
  refine Finset.sum_congr rfl fun a _ => ?_
  show (matmul dot_S200x512_S512x64_S200x64_1_0_0_1_n_n none (k0_pay2 (F := Ideal) P0 P1) P5 (constant S200x64 .f32 0x00000000#32) (ix2 p a)
      + k0_pay4 (F := Ideal) P2 P4 (ix2 p a)) * P6 (ix2 a (0 : Fin 1)) = _
  rw [selfAtt_at]
  refine congrArg (fun z : EReal => (z + proj (fun k => P2 (ix2 p k)) (fun k a => P4 (ix2 k a)) a) * P6 (ix2 a (0 : Fin 1))) ?_
  refine (PlainMatmul.matmul_zero_apply (φ₁ := .f32) (φ₂ := .f32) dot_S200x512_S512x64_S200x64_1_0_0_1_n_n rfl rfl rfl rfl rfl rfl none
    (k0_pay2 (F := Ideal) P0 P1) P5 p a).trans ?_
  refine Finset.sum_congr rfl fun k _ => ?_
  show k0_pay2 (F := Ideal) P0 P1 (ix2 p k) * P5 (ix2 k a) = _
  rw [neighSum_at]

/-- The own share of the output: the own gate over the sum of the gates, times the own row into the own output matrix. -/
theorem ownShare_at (p : Fin 200) (j : Fin 512) :
    k0_pay8 (F := Ideal) P0 P1 P2 P3 P4 P5 P6 (ix2 p j)
      = Ideal.div (k0_pay5 (F := Ideal) P2 P4 P6 (ix2 p (0 : Fin 1)))
          (k0_pay5 (F := Ideal) P2 P4 P6 (ix2 p (0 : Fin 1)) + k0_pay6 (F := Ideal) P0 P1 P2 P4 P5 P6 (ix2 p (0 : Fin 1)))
        * proj (fun k => P2 (ix2 p k)) (fun k j => P3 (ix2 k j)) j := by
  show (broadcastTo S200x512 (divf (k0_pay5 (F := Ideal) P2 P4 P6) (k0_pay7 (F := Ideal) P0 P1 P2 P4 P5 P6)) broadcasts_S200x1_S200x512) (ix2 p j)
      * (matmul dot_S200x512_S512x512_S200x512_1_0_0_1_n_n none (truncf .bf16 P2 bitsLt_bf16_f32) (truncf .bf16 P3 bitsLt_bf16_f32)
          (constant S200x512 .f32 0x00000000#32)) (ix2 p j) = _
  rw [KeptColumn.broadcastTo_a1_ab_apply]
  exact congrArg (fun z : EReal => Ideal.div (k0_pay5 (F := Ideal) P2 P4 P6 (ix2 p (0 : Fin 1)))
      (k0_pay5 (F := Ideal) P2 P4 P6 (ix2 p (0 : Fin 1)) + k0_pay6 (F := Ideal) P0 P1 P2 P4 P5 P6 (ix2 p (0 : Fin 1))) * z)
    (PlainMatmul.matmul_zero_apply (φ₁ := .bf16) (φ₂ := .bf16) dot_S200x512_S512x512_S200x512_1_0_0_1_n_n rfl rfl rfl rfl rfl rfl none
      (truncf .bf16 P2 bitsLt_bf16_f32) (truncf .bf16 P3 bitsLt_bf16_f32) p j)

/-- What the body leaves in the block at row `p`, column `q`: the row function of row `p` of the loaded blocks. -/
theorem block_at (p : Fin 200) (q : Fin 512) :
    Cert.KernelIdeal.ValueP.E8 (F := Ideal) P0 P1 P2 P3 P4 P5 P6 P7 (ix2 p q)
      = table (R := 200) P2 P0 P1 P7 P3 P4 P5 P6 p q := by
  have h0 : Cert.KernelIdeal.ValueP.ix8_0 (ix2 p q) = ix2 p q :=
    funext fun a => Fin.ext (by match a with | ⟨0, _⟩ => rfl | ⟨1, _⟩ => rfl)
  have h1 : Cert.KernelIdeal.ValueP.ix8_1 (ix2 p q) = ix2 p (0 : Fin 1) :=
    funext fun a => Fin.ext (by match a with | ⟨0, _⟩ => rfl | ⟨1, _⟩ => rfl)
  have h2 : Cert.KernelIdeal.ValueP.ix8_2 (ix2 p q) = ix2 p (0 : Fin 1) :=
    funext fun a => Fin.ext (by match a with | ⟨0, _⟩ => rfl | ⟨1, _⟩ => rfl)
  have h3 : Cert.KernelIdeal.ValueP.ix8_3 (ix2 p q) = ix2 p (0 : Fin 1) :=
    funext fun a => Fin.ext (by match a with | ⟨0, _⟩ => rfl | ⟨1, _⟩ => rfl)
  have h4 : Cert.KernelIdeal.ValueP.ix8_4 (ix2 p q) = ix2 p q :=
    funext fun a => Fin.ext (by match a with | ⟨0, _⟩ => rfl | ⟨1, _⟩ => rfl)
  show max (k0_pay8 (F := Ideal) P0 P1 P2 P3 P4 P5 P6 (Cert.KernelIdeal.ValueP.ix8_0 (ix2 p q))
        + Ideal.div (k0_pay6 (F := Ideal) P0 P1 P2 P4 P5 P6 (Cert.KernelIdeal.ValueP.ix8_1 (ix2 p q)))
            (k0_pay5 (F := Ideal) P2 P4 P6 (Cert.KernelIdeal.ValueP.ix8_2 (ix2 p q))
              + k0_pay6 (F := Ideal) P0 P1 P2 P4 P5 P6 (Cert.KernelIdeal.ValueP.ix8_3 (ix2 p q)))
          * k0_pay3 (F := Ideal) P0 P1 P7 (Cert.KernelIdeal.ValueP.ix8_4 (ix2 p q)))
      (Ideal.ofBits .f32 0x00000000#32) = _
  rw [h0, h1, h2, h3, h4, Ideal.ofBits_zero_f32, ownShare_at, fromNeigh_at, gateSelf_at, gateNeigh_at]
  rfl

theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the output block, from its eight input blocks, at row `p` and column `q`: each input block
    is loaded whole, the one store covers the output block. -/
theorem out_at (x0 : FVec Ideal S200x512 .f32) (x1 : FVec Ideal S200x20x512 .f32) (x2 : FVec Ideal S200x20x1 .f32)
    (x3 x4 : FVec Ideal S512x512 .f32) (x5 x6 : FVec Ideal S512x64 .f32) (x7 : FVec Ideal S64x1 .f32) (p : Fin 200) (q : Fin 512) :
    out0_8 (F := Ideal) x0 x1 x2 x3 x4 x5 x6 x7 (ix2 p q) = table (R := 200) x0 x1 x2 x3 x4 x5 x6 x7 p q := by
  unfold out0_8
  rw [Cert.KernelIdeal.ValueP.canon8_eq]
  simp only [View.ld_unit_zero (S := S200x512) zero2, View.ld_unit_zero (S := S200x20x512) zero3,
    View.ld_unit_zero (S := S200x20x1) zero3, View.ld_unit_zero (S := S512x512) zero2,
    View.ld_unit_zero (S := S512x64) zero2, View.ld_unit_zero (S := S64x1) zero2]
  exact block_at x1 x2 x0 x4 x5 x6 x7 x3 p q

end Cert.KernelIdeal.Row

end
-- ==== Proof.HostWeights.lean ====
/-
  The array the kernel's third window reads.

  Before the region the host computes, from the column indices and the table, the attention weights (a softmax over
  each node's neighbours of the gathered table entries) and multiplies the given edge weights by them. The reference
  computes the same attention weights by the same operations; they are named here by the reference's stage and never
  opened.
-/
import proofs.«164670_j73847667687537_1_alg».proof.Proof.Gen.KernelIdeal.Frame
import proofs.«164670_j73847667687537_1_alg».proof.Proof.Gen.ReferenceIdeal.Read
import Idealize.ShloMosaic.Lib.StableHlo.Run

noncomputable section

namespace Cert.KernelIdeal.HostWeights

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The combined weights as a function of the kernel's arguments: the given edge weights times the attention weights. -/
abbrev weights (c : Dev nD) : FVec Ideal S10000x20x1 .f32 :=
  mulf (m ((c : Thread nD τ).loc main_arg2))
    (Cert.ReferenceIdeal.Read.val_main_v15 (F := Ideal) (m ((c : Thread nD τ).loc main_arg3)) (m ((c : Thread nD τ).loc main_arg6)))

set_option maxHeartbeats 2000000 in
/-- When the region is entered, the combined-weight array holds them. -/
theorem combined (c : Dev nD) : (V m c main_v14 : S10000x20x1.Idx → EReal) = weights m c := by
  dsimp only [Gen.V, Gen.hostOps0]
  after_results_simp
  rfl

end Cert.KernelIdeal.HostWeights

end
-- ==== Proof.Blocks.lean ====
/-
  From the blocks to the whole array.

  The grid has fifty points; at point t every row-blocked window (the nodes' own rows, their neighbour rows, the combined
  weights, the output) is at block t of its array, rows 200·t to 200·t + 199, and the five matrices are read whole. So what
  point t writes back is block t of the specification's array of the arrays the region finds, the fifty blocks cover the
  10000 rows, and after the run the output array is that array — of the kernel's arguments, the combined weights being
  the given weights times the attention weights.
-/
import proofs.«164670_j73847667687537_1_alg».proof.Proof.ValueBlocks
import proofs.«164670_j73847667687537_1_alg».proof.Proof.KernelRow
import proofs.«164670_j73847667687537_1_alg».proof.Proof.HostWeights
import proofs.«164670_j73847667687537_1_alg».proof.Proof.RowSpec
import Idealize.ShloMosaic.Lib.Pipeline.Value
import Idealize.ShloMosaic.Lib.ValueIdx

noncomputable section

namespace Cert.KernelIdeal.Whole

open Cert.KernelIdeal Cert.KernelIdeal.Gen Cert.NeighbourGate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the fifty points: the row-blocked windows are at block `t`, every other
    block index is zero. -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The specification's array of the arrays the region finds. -/
abbrev found (c : Dev nD) : S10000x512.Idx → EReal :=
  G (V m c main_arg0) (V m c main_arg1) (V m c main_v14) (V m c main_arg4) (V m c main_arg5) (V m c main_arg7)
    (V m c main_arg8) (V m c main_arg9)

/-- What point `t` writes back is block `t` of that array. -/
theorem flushed_eq (c : Dev nD) (t : Fin cfg0.N) :
    (dats m 0 c).flushed 8 t = ((cfg0.win 8).blk t).view.read (Elt Ideal) (found m c) := by
  rw [Cert.KernelIdeal.ValueP.flushed8]
  obtain ⟨e80, e81, e00, e01, e10, e11, e12, e20, e21, e22, e30, e31, e40, e41, e50, e51, e60, e61, e70, e71⟩ := idx_facts t
  have hN : cfg0.N = 50 := N_0
  have ht : t.val < 50 := hN ▸ t.isLt
  funext y
  obtain ⟨p, q, rfl⟩ : ∃ (p : Fin 200) (q : Fin 512), y = ix2 p q := ⟨y 0, y 1, eq_ix2 y⟩
  have hp : p.val < 200 := p.isLt
  have hq : q.val < 512 := q.isLt
  show out0_8 (iblk m c 0 t) (iblk m c 1 t) (iblk m c 2 t) (iblk m c 3 t) (iblk m c 4 t) (iblk m c 5 t) (iblk m c 6 t) (iblk m c 7 t) (ix2 p q)
    = found m c (((cfg0.win 8).blk t).view.emb (ix2 p q))
  have hemb : ((cfg0.win 8).blk t).view.emb (ix2 p q) = ix2 (⟨t.val * 200 + p.val, by omega⟩ : Fin 10000) q := by
    funext a; apply Fin.ext
    match a with
    | ⟨0, _⟩ => show win0_8.index t (0 : Fin 2) * 200 + 1 * p.val = t.val * 200 + p.val; omega
    | ⟨1, _⟩ => show win0_8.index t (1 : Fin 2) * 512 + 1 * q.val = q.val; omega
  rw [hemb]
  show _ = table (V m c main_arg0) (V m c main_arg1) (V m c main_v14) (V m c main_arg4) (V m c main_arg5) (V m c main_arg7)
    (V m c main_arg8) (V m c main_arg9) (⟨t.val * 200 + p.val, by omega⟩ : Fin 10000) q
  refine (Cert.KernelIdeal.Row.out_at (iblk m c 0 t) (iblk m c 1 t) (iblk m c 2 t) (iblk m c 3 t) (iblk m c 4 t) (iblk m c 5 t)
    (iblk m c 6 t) (iblk m c 7 t) p q).trans ?_
  refine table_congr ?_ ?_ ?_ ?_ ?_ ?_ ?_ ?_ q
  · intro k
    show V m c main_arg0 (((cfg0.win 0).blk t).view.emb (ix2 p k)) = V m c main_arg0 (ix2 (⟨t.val * 200 + p.val, by omega⟩ : Fin 10000) k)
    refine congrArg (V m c main_arg0) (funext fun a => Fin.ext ?_)
    match a with
    | ⟨0, _⟩ => show win0_0.index t (0 : Fin 2) * 200 + 1 * p.val = t.val * 200 + p.val; omega
    | ⟨1, _⟩ => show win0_0.index t (1 : Fin 2) * 512 + 1 * k.val = k.val; omega
  · intro s d
    show V m c main_arg1 (((cfg0.win 1).blk t).view.emb (ix3 p s d)) = V m c main_arg1 (ix3 (⟨t.val * 200 + p.val, by omega⟩ : Fin 10000) s d)
    refine congrArg (V m c main_arg1) (funext fun a => Fin.ext ?_)
    match a with
    | ⟨0, _⟩ => show win0_1.index t (0 : Fin 3) * 200 + 1 * p.val = t.val * 200 + p.val; omega
    | ⟨1, _⟩ => show win0_1.index t (1 : Fin 3) * 20 + 1 * s.val = s.val; omega
    | ⟨2, _⟩ => show win0_1.index t (2 : Fin 3) * 512 + 1 * d.val = d.val; omega
  · intro s
    show V m c main_v14 (((cfg0.win 2).blk t).view.emb (ix3 p s (0 : Fin 1))) = V m c main_v14 (ix3 (⟨t.val * 200 + p.val, by omega⟩ : Fin 10000) s (0 : Fin 1))
    refine congrArg (V m c main_v14) (funext fun a => Fin.ext ?_)
    match a with
    | ⟨0, _⟩ => show win0_2.index t (0 : Fin 3) * 200 + 1 * p.val = t.val * 200 + p.val; omega
    | ⟨1, _⟩ => show win0_2.index t (1 : Fin 3) * 20 + 1 * s.val = s.val; omega
    | ⟨2, _⟩ => show win0_2.index t (2 : Fin 3) * 1 + 1 * 0 = 0; omega
  · intro k j
    show V m c main_arg4 (((cfg0.win 3).blk t).view.emb (ix2 k j)) = V m c main_arg4 (ix2 k j)
    refine congrArg (V m c main_arg4) (funext fun a => Fin.ext ?_)
    match a with
    | ⟨0, _⟩ => show win0_3.index t (0 : Fin 2) * 512 + 1 * k.val = k.val; omega
    | ⟨1, _⟩ => show win0_3.index t (1 : Fin 2) * 512 + 1 * j.val = j.val; omega
  · intro k j
    show V m c main_arg5 (((cfg0.win 4).blk t).view.emb (ix2 k j)) = V m c main_arg5 (ix2 k j)
    refine congrArg (V m c main_arg5) (funext fun a => Fin.ext ?_)
    match a with
    | ⟨0, _⟩ => show win0_4.index t (0 : Fin 2) * 512 + 1 * k.val = k.val; omega
    | ⟨1, _⟩ => show win0_4.index t (1 : Fin 2) * 512 + 1 * j.val = j.val; omega
  · intro k a'
    show V m c main_arg7 (((cfg0.win 5).blk t).view.emb (ix2 k a')) = V m c main_arg7 (ix2 k a')
    refine congrArg (V m c main_arg7) (funext fun a => Fin.ext ?_)
    match a with
    | ⟨0, _⟩ => show win0_5.index t (0 : Fin 2) * 512 + 1 * k.val = k.val; omega
    | ⟨1, _⟩ => show win0_5.index t (1 : Fin 2) * 64 + 1 * a'.val = a'.val; omega
  · intro k a'
    show V m c main_arg8 (((cfg0.win 6).blk t).view.emb (ix2 k a')) = V m c main_arg8 (ix2 k a')
    refine congrArg (V m c main_arg8) (funext fun a => Fin.ext ?_)
    match a with
    | ⟨0, _⟩ => show win0_6.index t (0 : Fin 2) * 512 + 1 * k.val = k.val; omega
    | ⟨1, _⟩ => show win0_6.index t (1 : Fin 2) * 64 + 1 * a'.val = a'.val; omega
  · intro a'
    show V m c main_arg9 (((cfg0.win 7).blk t).view.emb (ix2 a' (0 : Fin 1))) = V m c main_arg9 (ix2 a' (0 : Fin 1))
    refine congrArg (V m c main_arg9) (funext fun a => Fin.ext ?_)
    match a with
    | ⟨0, _⟩ => show win0_7.index t (0 : Fin 2) * 64 + 1 * a'.val = a'.val; omega
    | ⟨1, _⟩ => show win0_7.index t (1 : Fin 2) * 1 + 1 * 0 = 0; omega

/-- An index of the output array is in point `t`'s block iff each coordinate is in the block's range on its axis. -/
theorem mem_blk (t : Fin cfg0.N) (i : S10000x512.Idx) :
    i ∈ ((cfg0.win 8).blk t).view.set ↔ ∀ a : Fin 2, win0_8.index t a * S200x512.size a ≤ (i a).val
      ∧ (i a).val < win0_8.index t a * S200x512.size a + S200x512.size a := by
  show i ∈ ((View.whole main_v15).slice (win0_8.rect t)).set ↔ _
  rw [View.set_slice_whole, Rect.mem_set_unit]
  exact Iff.rfl

/-- Every index of the output array is in some point's block: row `r` is in block `r / 200`. -/
theorem cover (i : S10000x512.Idx) :
    ∃ t : Fin cfg0.N, (cfg0.win 8).flush t = true ∧ i ∈ ((cfg0.win 8).blk t).view.set := by
  have hi0 : (i 0).val < 10000 := (i 0).isLt
  have hi1 : (i 1).val < 512 := (i 1).isLt
  have hN : cfg0.N = 50 := N_0
  have hlt : (i 0).val / 200 < cfg0.N := by rw [hN]; omega
  refine ⟨⟨(i 0).val / 200, hlt⟩, flush0_8 _, ?_⟩
  rw [mem_blk]
  obtain ⟨e80, e81, -⟩ := idx_facts ⟨(i 0).val / 200, hlt⟩
  have e80' : win0_8.index ⟨(i 0).val / 200, hlt⟩ (0 : Fin 2) = (i 0).val / 200 := e80
  intro a
  match a with
  | ⟨0, _⟩ =>
    show win0_8.index ⟨(i 0).val / 200, hlt⟩ (0 : Fin 2) * 200 ≤ (i 0).val
      ∧ (i 0).val < win0_8.index ⟨(i 0).val / 200, hlt⟩ (0 : Fin 2) * 200 + 200
    omega
  | ⟨1, _⟩ =>
    show win0_8.index ⟨(i 0).val / 200, hlt⟩ (1 : Fin 2) * 512 ≤ (i 1).val
      ∧ (i 1).val < win0_8.index ⟨(i 0).val / 200, hlt⟩ (1 : Fin 2) * 512 + 512
    omega

/-- After the run the output array is the specification's array of the kernel's arguments, the combined weights being
    the given weights times the attention weights. -/
theorem final (c : Dev nD) :
    (dats m 0 c).arrAt 8 cfg0.N
      = G (m ((c : Thread nD τ).loc main_arg0)) (m ((c : Thread nD τ).loc main_arg1))
          (Cert.KernelIdeal.HostWeights.weights m c)
          (m ((c : Thread nD τ).loc main_arg4)) (m ((c : Thread nD τ).loc main_arg5)) (m ((c : Thread nD τ).loc main_arg7))
          (m ((c : Thread nD τ).loc main_arg8)) (m ((c : Thread nD τ).loc main_arg9)) := by
  rw [(dats m 0 c).arrAt_eq_of_cover 8 (found m c) (fun t _ => flushed_eq m c t) (cover)]
  show G (V m c main_arg0) (V m c main_arg1) (V m c main_v14) (V m c main_arg4) (V m c main_arg5) (V m c main_arg7)
    (V m c main_arg8) (V m c main_arg9) = _
  rw [V_main_arg0, V_main_arg1, V_main_arg4, V_main_arg5, V_main_arg7, V_main_arg8, V_main_arg9,
    Cert.KernelIdeal.HostWeights.combined]

/-- The kernel's run with the output array named: every weakly fair execution ends with the output at the
    specification's array of the arguments, and the arguments unchanged. -/
theorem run : θ_run defs (onTc (τ := τ) (main (F := Ideal))) ⟨m, fun _ => 0, ρ⟩ fun r => ∀ c : Dev nD,
      r.2.mem ((c : Thread nD τ).loc main_v15)
        = G (m ((c : Thread nD τ).loc main_arg0)) (m ((c : Thread nD τ).loc main_arg1))
            (Cert.KernelIdeal.HostWeights.weights m c)
            (m ((c : Thread nD τ).loc main_arg4)) (m ((c : Thread nD τ).loc main_arg5)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.ValueP.run_blocks m ρ)

end Cert.KernelIdeal.Whole

end
-- ==== Proof.RefRow.lean ====
/-
  One row of the reference.

  Read at node n and column j, the reference's result is the row function of the specification applied to row n of
  its arguments, with the edge weight of neighbour s being the given weight times the attention weight (the softmax
  over the neighbours of the gathered table entry, which enters here as one array and is never opened). The host's sum
  over the neighbours starts from zero; the reference multiplies a neighbour row by the given weight first and by the
  attention weight second, which is the product by the combined weight because multiplication on the extended reals is
  associative.
-/
import proofs.«164670_j73847667687537_1_alg».proof.Proof.Gen.ReferenceIdeal.Read
import proofs.«164670_j73847667687537_1_alg».proof.Proof.RowSpec
import Idealize.ShloMosaic.Lib.ValueIdx
import Idealize.ShloMosaic.PureOps.Ideal.Laws

noncomputable section

open scoped BigOperators

namespace Cert.ReferenceIdeal.Row

open Cert.ReferenceIdeal Cert.ReferenceIdeal.Gen Cert.ReferenceIdeal.Read Cert.NeighbourGate
open Idealize.ShloMosaic Idealize.ShloMosaic.ValueIdx

variable (x0 : FVec Ideal S10000x512 .f32) (x1 : FVec Ideal S10000x20x512 .f32) (x2 : FVec Ideal S10000x20x1 .f32)
  (x3 : IVec S10000x20x1 32) (x4 x5 : FVec Ideal S512x512 .f32) (x6 : FVec Ideal S9 .f32)
  (x7 x8 : FVec Ideal S512x64 .f32) (x9 : FVec Ideal S64x1 .f32)

/-- The combined edge weights: the given weight times the attention weight. -/
abbrev edgeWeight : FVec Ideal S10000x20x1 .f32 := mulf x2 (val_main_v15 (F := Ideal) x3 x6)

/-- The host's sum over the neighbours, at node `n` and feature `d`. -/
theorem neighSum_at (n : Fin 10000) (d : Fin 512) :
    val_main_v18 (F := Ideal) x1 x2 x3 x6 (ix2 n d)
      = neighSum (fun s d => x1 (ix3 n s d)) (fun s => edgeWeight x2 x3 x6 (ix3 n s (0 : Fin 1))) d := by
  rw [val_main_v18_apply]
  have hz : val_main_cst_1 (F := Ideal) (Shape.Idx.first h_S_) = 0 := Ideal.ofBits_zero_f32
  rw [hz, zero_add]
  refine Finset.sum_congr rfl fun s _ => ?_
  have e : idx_main_v18 (ix2 n d) s = ix3 n s d :=
    funext fun a => Fin.ext (by match a with | ⟨0, _⟩ => rfl | ⟨1, _⟩ => rfl | ⟨2, _⟩ => rfl)
  have e0 : idx_main_v0 (ix3 n s d) = ix3 n s (0 : Fin 1) :=
    funext fun a => Fin.ext (by match a with | ⟨0, _⟩ => rfl | ⟨1, _⟩ => rfl | ⟨2, _⟩ => rfl)
  have e16 : idx_main_v16 (ix3 n s d) = ix3 n s (0 : Fin 1) :=
    funext fun a => Fin.ext (by match a with | ⟨0, _⟩ => rfl | ⟨1, _⟩ => rfl | ⟨2, _⟩ => rfl)
  rw [e, val_main_v17_apply, val_main_v1_apply, val_main_v0_apply, val_main_v16_apply, e0, e16]
  exact mul_assoc _ _ _

/-- The node's own row into the own-attention matrix. -/
theorem selfAtt_at (n : Fin 10000) (a : Fin 64) :
    val_main_v21 (F := Ideal) x0 x7 (ix2 n a) = proj (fun k => x0 (ix2 n k)) (fun k a => x7 (ix2 k a)) a := by
  rw [val_main_v21_apply]
  refine Finset.sum_congr rfl fun k _ => ?_
  have el : lidx_main_v21 (ix2 n a) k = ix2 n k := funext fun b => Fin.ext (by match b with | ⟨0, _⟩ => rfl | ⟨1, _⟩ => rfl)
  have er : ridx_main_v21 (ix2 n a) k = ix2 k a := funext fun b => Fin.ext (by match b with | ⟨0, _⟩ => rfl | ⟨1, _⟩ => rfl)
  rw [el, er]

/-- The neighbour sum into the neighbour-attention matrix. -/
theorem neighAtt_at (n : Fin 10000) (a : Fin 64) :
    val_main_v22 (F := Ideal) x1 x2 x3 x6 x8 (ix2 n a)
      = proj (neighSum (fun s d => x1 (ix3 n s d)) (fun s => edgeWeight x2 x3 x6 (ix3 n s (0 : Fin 1)))) (fun k a => x8 (ix2 k a)) a := by
  rw [val_main_v22_apply]
  refine Finset.sum_congr rfl fun k _ => ?_
  have el : lidx_main_v22 (ix2 n a) k = ix2 n k := funext fun b => Fin.ext (by match b with | ⟨0, _⟩ => rfl | ⟨1, _⟩ => rfl)
  have er : ridx_main_v22 (ix2 n a) k = ix2 k a := funext fun b => Fin.ext (by match b with | ⟨0, _⟩ => rfl | ⟨1, _⟩ => rfl)
  rw [el, er, neighSum_at]

/-- The neighbour sum into the neighbour output matrix. -/
theorem fromNeigh_at (n : Fin 10000) (j : Fin 512) :
    val_main_v19 (F := Ideal) x1 x2 x3 x4 x6 (ix2 n j)
      = proj (neighSum (fun s d => x1 (ix3 n s d)) (fun s => edgeWeight x2 x3 x6 (ix3 n s (0 : Fin 1)))) (fun k j => x4 (ix2 k j)) j := by
  rw [val_main_v19_apply]
  refine Finset.sum_congr rfl fun k _ => ?_
  have el : lidx_main_v19 (ix2 n j) k = ix2 n k := funext fun b => Fin.ext (by match b with | ⟨0, _⟩ => rfl | ⟨1, _⟩ => rfl)
  have er : ridx_main_v19 (ix2 n j) k = ix2 k j := funext fun b => Fin.ext (by match b with | ⟨0, _⟩ => rfl | ⟨1, _⟩ => rfl)
  rw [el, er, neighSum_at]

/-- The node's own row into the own output matrix. -/
theorem fromSelf_at (n : Fin 10000) (j : Fin 512) :
    val_main_v20 (F := Ideal) x0 x5 (ix2 n j) = proj (fun k => x0 (ix2 n k)) (fun k j => x5 (ix2 k j)) j := by
  rw [val_main_v20_apply]
  refine Finset.sum_congr rfl fun k _ => ?_
  have el : lidx_main_v20 (ix2 n j) k = ix2 n k := funext fun b => Fin.ext (by match b with | ⟨0, _⟩ => rfl | ⟨1, _⟩ => rfl)
  have er : ridx_main_v20 (ix2 n j) k = ix2 k j := funext fun b => Fin.ext (by match b with | ⟨0, _⟩ => rfl | ⟨1, _⟩ => rfl)
  rw [el, er]

/-- The gate of (own + own). -/
theorem gateSelf_at (n : Fin 10000) :
    val_main_v27 (F := Ideal) x0 x7 x9 (ix2 n (0 : Fin 1))
      = gate (fun a => proj (fun k => x0 (ix2 n k)) (fun k a => x7 (ix2 k a)) a + proj (fun k => x0 (ix2 n k)) (fun k a => x7 (ix2 k a)) a)
          (fun a => x9 (ix2 a (0 : Fin 1))) := by
  rw [val_main_v27_apply, val_main_v26_apply, val_main_v25_apply]
  refine congrArg (fun z => Ideal.exp (Ideal.tanh z)) ?_
  refine Finset.sum_congr rfl fun a _ => ?_
  have el : lidx_main_v25 (ix2 n (0 : Fin 1)) a = ix2 n a := funext fun b => Fin.ext (by match b with | ⟨0, _⟩ => rfl | ⟨1, _⟩ => rfl)
  have er : ridx_main_v25 (ix2 n (0 : Fin 1)) a = ix2 a (0 : Fin 1) := funext fun b => Fin.ext (by match b with | ⟨0, _⟩ => rfl | ⟨1, _⟩ => rfl)
  rw [el, er, val_main_v23_apply, selfAtt_at]
  rfl

/-- The gate of (neighbour + own). -/
theorem gateNeigh_at (n : Fin 10000) :
    val_main_v30 (F := Ideal) x0 x1 x2 x3 x6 x7 x8 x9 (ix2 n (0 : Fin 1))
      = gate (fun a => proj (neighSum (fun s d => x1 (ix3 n s d)) (fun s => edgeWeight x2 x3 x6 (ix3 n s (0 : Fin 1)))) (fun k a => x8 (ix2 k a)) a
                      + proj (fun k => x0 (ix2 n k)) (fun k a => x7 (ix2 k a)) a)
          (fun a => x9 (ix2 a (0 : Fin 1))) := by
  rw [val_main_v30_apply, val_main_v29_apply, val_main_v28_apply]
  refine congrArg (fun z => Ideal.exp (Ideal.tanh z)) ?_
  refine Finset.sum_congr rfl fun a _ => ?_
  have el : lidx_main_v28 (ix2 n (0 : Fin 1)) a = ix2 n a := funext fun b => Fin.ext (by match b with | ⟨0, _⟩ => rfl | ⟨1, _⟩ => rfl)
  have er : ridx_main_v28 (ix2 n (0 : Fin 1)) a = ix2 a (0 : Fin 1) := funext fun b => Fin.ext (by match b with | ⟨0, _⟩ => rfl | ⟨1, _⟩ => rfl)
  rw [el, er, val_main_v24_apply, selfAtt_at, neighAtt_at]
  rfl

/-- The reference's result at node `n`, column `j`: the row function of row `n` of its arguments. -/
theorem result_at (n : Fin 10000) (j : Fin 512) :
    val_main_v39 (F := Ideal) x0 x1 x2 x3 x4 x5 x6 x7 x8 x9 (ix2 n j)
      = table (R := 10000) x0 x1 (edgeWeight x2 x3 x6) x4 x5 x7 x8 x9 n j := by
  have e33 : idx_main_v33 (ix2 n j) = ix2 n (0 : Fin 1) := funext fun b => Fin.ext (by match b with | ⟨0, _⟩ => rfl | ⟨1, _⟩ => rfl)
  have e36 : idx_main_v36 (ix2 n j) = ix2 n (0 : Fin 1) := funext fun b => Fin.ext (by match b with | ⟨0, _⟩ => rfl | ⟨1, _⟩ => rfl)
  rw [val_main_v39_apply, val_main_v38_apply, val_main_v34_apply, val_main_v37_apply, val_main_v33_apply, val_main_v36_apply,
    e33, e36, val_main_v32_apply, val_main_v35_apply, val_main_v31_apply, val_main_call0_v0_apply, val_main_call0_cst_apply,
    gateSelf_at, gateNeigh_at, fromSelf_at, fromNeigh_at]
  show max _ (Ideal.ofBits .f32 0x00000000#32) = _
  rw [Ideal.ofBits_zero_f32]
  rfl

/-- The reference's result is the specification's array, the combined edge weights being the given weights times the attention weights. -/
theorem result_eq :
    val_main_v39 (F := Ideal) x0 x1 x2 x3 x4 x5 x6 x7 x8 x9 = G x0 x1 (edgeWeight x2 x3 x6) x4 x5 x7 x8 x9 := by
  funext i
  obtain ⟨n, j, rfl⟩ : ∃ (n : Fin 10000) (j : Fin 512), i = ix2 n j := ⟨i 0, i 1, eq_ix2 i⟩
  exact result_at x0 x1 x2 x3 x4 x5 x6 x7 x8 x9 n j

end Cert.ReferenceIdeal.Row

end
-- ==== Proof.lean ====
/-
  The kernel and its reference compute the same array on the extended reals.

  Both programs take, for each of 10000 nodes, the node's own feature row and the rows of its twenty neighbours. Each
  neighbour row is scaled by an edge weight times an attention weight — the softmax, over the node's neighbours, of a
  table entry gathered by the neighbour's column index — and the scaled rows are added. The node's row and that sum are
  each multiplied into an output matrix and an attention matrix; the attention rows own + own and neighbour + own are
  contracted with a vector and put through exp ∘ tanh, giving two gates; the result is the two output products mixed in
  the proportion of the gates and clipped below at zero.

  The kernel forms the product of the edge weight and the attention weight on the host and scales each neighbour row
  once; the reference scales by the edge weight first and by the attention weight second. Multiplication on the extended
  reals is associative, so the two agree entry by entry, with no condition on the inputs. Everything else is the same
  arithmetic in a different arrangement: the kernel works on blocks of 200 nodes, takes its products on the matrix
  unit into zero accumulators (after changes of float format, which are the identity on the extended reals) and its
  neighbour sum as a lane reduction, where the reference takes whole-array products and a host sum from zero.

  Proof/RowSpec.lean states the result as one function of the argument arrays, row by row. Proof/KernelRow.lean shows that
  the kernel's block, at a row, is that function of the block's rows; Proof/Blocks.lean that the fifty blocks make up the
  whole array (over Proof/ValueBlocks.lean, the kernel's run with its output array named, and Proof/HostWeights.lean, the
  combined weights the kernel's third window reads); Proof/RefRow.lean that the reference's result is the same function.
  The three frames are the generated frame proofs and the reference's generated run; the idealization rewrote nothing, so
  there is nothing to preserve.
-/
import proofs.«164670_j73847667687537_1_alg».proof.Defs
import proofs.«164670_j73847667687537_1_alg».proof.Proof.Gen.Kernel
import proofs.«164670_j73847667687537_1_alg».proof.Proof.Gen.Kernel.Skeleton
import proofs.«164670_j73847667687537_1_alg».proof.Proof.Gen.Kernel.Launch
import proofs.«164670_j73847667687537_1_alg».proof.Proof.Gen.Kernel.Points
import proofs.«164670_j73847667687537_1_alg».proof.Proof.Gen.Kernel.Frame
import proofs.«164670_j73847667687537_1_alg».proof.Proof.Gen.KernelIdeal
import proofs.«164670_j73847667687537_1_alg».proof.Proof.Gen.KernelIdeal.Skeleton
import proofs.«164670_j73847667687537_1_alg».proof.Proof.Gen.KernelIdeal.Launch
import proofs.«164670_j73847667687537_1_alg».proof.Proof.Gen.KernelIdeal.Points
import proofs.«164670_j73847667687537_1_alg».proof.Proof.Gen.KernelIdeal.Frame
import proofs.«164670_j73847667687537_1_alg».proof.Proof.Gen.ReferenceIdeal
import proofs.«164670_j73847667687537_1_alg».proof.Proof.Gen.Pre_finite_inputs
import proofs.«164670_j73847667687537_1_alg».proof.Proof.Gen.ReferenceIdeal.Run
import proofs.«164670_j73847667687537_1_alg».proof.Proof.Gen.ReferenceIdeal.Read
import proofs.«164670_j73847667687537_1_alg».proof.Proof.Blocks
import proofs.«164670_j73847667687537_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a sequence of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories that agree on the arguments, both programs end with the specification's array of the arguments, the
    combined weights being the edge weights times the attention weights. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v39_eq, Cert.ReferenceIdeal.Row.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
